-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S257x128 : Shape := ⟨2, ![257, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S257x128 1) : IVec S_ 1 :=
  let main_c_5 : IVec S_ 1 := constantI S_ 1 1#1
  let main_v17 : IVec S_ 1 := (fun x v => Host.reduce IntOp.andi x v reducesTo_S257x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S8192x8192 .f32) (main_arg2 : FVec F S8192x8192 .f32) (main_arg3 : FVec F S257x128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S257x128 .f32 := Host.absf main_arg3
  let main_cst_4 : FVec F S_ .f32 := constant S_ .f32 0x7F800000#32
  let main_v15 : FVec F S257x128 .f32 := broadcastInDim S257x128 ![] bcast_S_S257x128 main_cst_4
  let main_v16 : IVec S257x128 1 := cmpf .olt main_v14 main_v15
  fn_part1 (F := F) main_arg4 main_v13 main_v16
-- ==== Kernel.lean ====
abbrev S8192x128 : Shape := ⟨2, ![8192, 128]⟩
abbrev S8192x8192 : Shape := ⟨2, ![8192, 8192]⟩
abbrev S257x128 : Shape := ⟨2, ![257, 128]⟩
abbrev S128 : Shape := ⟨1, ![128]⟩
abbrev S128x128 : Shape := ⟨2, ![128, 128]⟩
abbrev S1x128 : Shape := ⟨2, ![1, 128]⟩
abbrev S2048x1024 : Shape := ⟨2, ![2048, 1024]⟩
abbrev S1024x2048 : Shape := ⟨2, ![1024, 2048]⟩
abbrev S2048x128 : Shape := ⟨2, ![2048, 128]⟩
abbrev S2048x1 : Shape := ⟨2, ![2048, 1]⟩
abbrev S1024x128 : Shape := ⟨2, ![1024, 128]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S1x128, .f32⟩
  | .hbm, ⟨9, _⟩ => ⟨S8192x128, .f32⟩
  | .local _ .vmem, ⟨0, _⟩ => ⟨S8192x128, .f32⟩
  | .local _ .vmem, ⟨1, _⟩ => ⟨S2048x1024, .f32⟩
  | .local _ .vmem, ⟨2, _⟩ => ⟨S2048x1024, .f32⟩
  | .local _ .vmem, ⟨3, _⟩ => ⟨S1024x2048, .f32⟩
  | .local _ .vmem, ⟨4, _⟩ => ⟨S1024x2048, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : Index := Scalar.indexCast v4
  let c0_2 : Index := 0#32
  ![v5.toNat, 0]
def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def k0_off2 (i : grid0.Coords) : Fin 2 → Nat :=
  let arg0 : BitVec 32 := BitVec.ofNat 32 (i 0).val
  let c2048_i32 : BitVec 32 := 2048#32
  let v28 : BitVec 32 := Scalar.muli arg0 c2048_i32
  let v29 : Index := Scalar.indexCast v28
  let c0_15 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  h_S1024x128 : 0 < S1024x128.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  transposes_S1024x2048_p1_0_S2048x1024 : S1024x2048.Transposes [1, 0] S2048x1024
  reduces_S2048x1024_S2048 : S2048x1024.Reduces [1] S2048
  shapeCasts_S2048_S2048x1 : S2048.ShapeCasts S2048x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2048x1_S2048x128 : S2048x1.Broadcasts S2048x128
  broadcasts_S1x128_S2048x128 : S1x128.Broadcasts S2048x128
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  k0_off1_inb : ∀ i : grid0.Coords, ∀ a, (k0_off1 i) a + S1024x128.size a ≤ S8192x128.size a
  k0_off2_inb : ∀ i : grid0.Coords, ∀ (k0_h2 : k0_cond2 i = 1#1), ∀ a, (k0_off2 i) a + S2048x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S8192x128.size a
  hwx0_7 : ∀ i : grid0.Coords, EltTy.bits .f32 = 32 ∨ (Rect.block (s := S8192x128) S2048x128.size (cc0_transform_7 i) (hinb0_7 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S257x128 : Shape := ⟨2, ![257, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S8192x257 : Shape := ⟨2, ![8192, 257]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S257x128, .f32⟩
  | .hbm, ⟨4, _⟩ => ⟨S128, .f32⟩
  | .hbm, ⟨5, _⟩ => ⟨S8192x128, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x257, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S8192x8192_S8192x8192_1_0 : S8192x8192.Transposes [1, 0] S8192x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  concatenates_S8192x128_S8192x128_S8192x1_S8192x257_d1 : Shape.Concatenates [S8192x128, S8192x128, S8192x1] S8192x257 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x257_S257x128_S8192x128_1_0_0_1_n_n_wf : DotDims.WF S8192x257 S257x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x257_S257x128_S8192x128_1_0_0_1_n_n : DotDims S8192x257 S257x128 S8192x128 where
  lhsContracting := [1]
  rhsContracting := [0]
  lhsNonContracting := [0]
  rhsNonContracting := [1]
  lhsBatch := []
  rhsBatch := []
  wf := dot_S8192x257_S257x128_S8192x128_1_0_0_1_n_n_wf

class Facts : Prop extends Facts₀ where

variable [Facts]
-- ==== Proof.Spec.lean ====
/-
  The readout of a graph layer as ONE function of its five arrays, on the extended reals.

  For node features `x` (8192 × 128), edge features `e` and adjacency `a` (both 8192 × 8192), a weight `w`
  (257 × 128) and a bias `b` (128):

      out r o = ∑_d x r d · w d o  +  ∑_d (∑_k a r k · x k d) · w (128 + d) o  +  (∑_k a r k · e k r) · w 256 o  +  b o.

  The three rows of blocks of `w` meet the three parts of the concatenated row `[x r · , (a x) r · , (a ∘ eᵀ) r]`.
  Beside the function itself this module has the two re-bracketings of finite sums that relate the ways of computing
  it: a sum over `0 … B·(j+1)` is the sum over `0 … B·j` plus the sum over the next `B` terms (a column block at a
  time), and a sum over 257 terms is the sum over the first 128, plus the sum over the next 128, plus the last term.
  Both hold in any commutative additive monoid, so on the extended reals they need no finiteness: only the order and
  the grouping of additions change, never a product moved across a sum.
-/
import Idealize.ShloMosaic.PureOps.Ideal
import Idealize.ShloMosaic.Lib.ValueIdx

noncomputable section

open scoped BigOperators

namespace Cert.Readout

open Idealize.ShloMosaic Idealize.ShloMosaic.ValueIdx

/-! ## Re-bracketing finite sums -/

section Sums

variable {M : Type*} [AddCommMonoid M]

/-- A family indexed by `Fin N`, continued by zero to every natural number. -/
def zeroExt {N : ℕ} (f : Fin N → M) (k : ℕ) : M := if h : k < N then f ⟨k, h⟩ else 0

theorem zeroExt_of_lt {N : ℕ} (f : Fin N → M) {k : ℕ} (h : k < N) : zeroExt f k = f ⟨k, h⟩ := dif_pos h

/-- Summed over the first `N` naturals, the continuation is the sum of the family. -/
theorem sum_range_zeroExt {N : ℕ} (f : Fin N → M) : ∑ k ∈ Finset.range N, zeroExt f k = ∑ k : Fin N, f k := by
  rw [Finset.sum_range]
  exact Finset.sum_congr rfl fun k _ => zeroExt_of_lt f k.isLt

/-- One more block: the sum over the first `B·(j+1)` terms is the sum over the first `B·j` plus the `B` terms of
    block `j`. -/
theorem sum_range_next_block (g : ℕ → M) (B j : ℕ) :
    ∑ k ∈ Finset.range (B * (j + 1)), g k = ∑ k ∈ Finset.range (B * j), g k + ∑ q : Fin B, g (B * j + q.val) := by
  rw [Nat.mul_succ, Finset.sum_range_add, Finset.sum_range fun x => g (B * j + x)]

/-- Row `d` of the first 128 × 128 block of a 257-row matrix; -/
def row1 (d : Fin 128) : Fin 257 := ⟨d.val, by have := d.isLt; omega⟩
/-- row `d` of its second 128 × 128 block; -/
def row2 (d : Fin 128) : Fin 257 := ⟨128 + d.val, by have := d.isLt; omega⟩
/-- and its last row. -/
def row3 : Fin 257 := ⟨256, by decide⟩

/-- A sum of 257 terms, split 128 + 128 + 1. -/
theorem sum_fin257 (h : Fin 257 → M) :
    ∑ c : Fin 257, h c = (∑ d : Fin 128, h (row1 d) + ∑ d : Fin 128, h (row2 d)) + h row3 := by
  rw [Fin.sum_univ_castSucc (n := 256)]
  congr 1
  exact Fin.sum_univ_add (a := 128) (b := 128) fun i : Fin (128 + 128) => h (Fin.castSucc i)

end Sums

/-! ## The arrays and the function -/

/-- Node features, and the result: 8192 × 128. -/
abbrev Nodes : Type := (⟨2, ![8192, 128]⟩ : Shape).Idx → EReal
/-- Edge features and adjacency: 8192 × 8192. -/
abbrev Pairs : Type := (⟨2, ![8192, 8192]⟩ : Shape).Idx → EReal
/-- The weight: 257 × 128. -/
abbrev Weight : Type := (⟨2, ![257, 128]⟩ : Shape).Idx → EReal
/-- The bias: 128. -/
abbrev Bias : Type := (⟨1, ![128]⟩ : Shape).Idx → EReal

/-- The terms of the neighbour sum of node features: `a r k · x k d`. -/
def nodeTerm (a : Pairs) (x : Nodes) (r : Fin 8192) (d : Fin 128) (k : Fin 8192) : EReal := a (ix2 r k) * x (ix2 k d)

/-- The terms of the neighbour sum of edge features: `a r k · e k r` (the edge array is read transposed). -/
def edgeTerm (a e : Pairs) (r : Fin 8192) (k : Fin 8192) : EReal := a (ix2 r k) * e (ix2 k r)

/-- `(a x) r d = ∑_k a r k · x k d`. -/
def nodeAgg (a : Pairs) (x : Nodes) (r : Fin 8192) (d : Fin 128) : EReal := ∑ k : Fin 8192, nodeTerm a x r d k

/-- `∑_k a r k · e k r`: the diagonal of `a e`. -/
def edgeAgg (a e : Pairs) (r : Fin 8192) : EReal := ∑ k : Fin 8192, edgeTerm a e r k

/-- The neighbour sum of node features over the first `n` columns of `a` only; -/
def nodePart (a : Pairs) (x : Nodes) (r : Fin 8192) (d : Fin 128) (n : ℕ) : EReal :=
  ∑ k ∈ Finset.range n, zeroExt (nodeTerm a x r d) k

/-- of edge features likewise. -/
def edgePart (a e : Pairs) (r : Fin 8192) (n : ℕ) : EReal := ∑ k ∈ Finset.range n, zeroExt (edgeTerm a e r) k

theorem nodePart_zero (a : Pairs) (x : Nodes) (r : Fin 8192) (d : Fin 128) : nodePart a x r d 0 = 0 :=
  Finset.sum_range_zero _

theorem edgePart_zero (a e : Pairs) (r : Fin 8192) : edgePart a e r 0 = 0 := Finset.sum_range_zero _

/-- Over all 8192 columns the partial sum is the whole one. -/
theorem nodePart_all (a : Pairs) (x : Nodes) (r : Fin 8192) (d : Fin 128) : nodePart a x r d 8192 = nodeAgg a x r d :=
  sum_range_zeroExt _

theorem edgePart_all (a e : Pairs) (r : Fin 8192) : edgePart a e r 8192 = edgeAgg a e r := sum_range_zeroExt _

/-- Column block `j` (1024 columns) added to the partial sum over the blocks before it. -/
theorem nodePart_next (a : Pairs) (x : Nodes) (r : Fin 8192) (d : Fin 128) (j : ℕ) :
    nodePart a x r d (1024 * (j + 1))
      = nodePart a x r d (1024 * j) + ∑ q : Fin 1024, zeroExt (nodeTerm a x r d) (1024 * j + q.val) :=
  sum_range_next_block _ 1024 j

theorem edgePart_next (a e : Pairs) (r : Fin 8192) (j : ℕ) :
    edgePart a e r (1024 * (j + 1))
      = edgePart a e r (1024 * j) + ∑ q : Fin 1024, zeroExt (edgeTerm a e r) (1024 * j + q.val) :=
  sum_range_next_block _ 1024 j

/-- The running node sum after one more column block: what was there — already the sum over the columns before — plus the
    block's 1024 products, each a term of the neighbour sum. -/
theorem nodePart_step (a : Pairs) (x : Nodes) (r : Fin 8192) (d : Fin 128) (j : ℕ) (hj : j < 8) (prev : EReal)
    (hprev : prev = nodePart a x r d (1024 * j)) (f : Fin 1024 → EReal)
    (hf : ∀ q : Fin 1024, f q = nodeTerm a x r d ⟨1024 * j + q.val, by have := q.isLt; omega⟩) :
    prev + ∑ q : Fin 1024, f q = nodePart a x r d (1024 * (j + 1)) := by
  rw [nodePart_next, hprev]
  refine congrArg (_ + ·) (Finset.sum_congr rfl fun q _ => ?_)
  exact (hf q).trans (zeroExt_of_lt _ _).symm

/-- The running edge sum likewise. -/
theorem edgePart_step (a e : Pairs) (r : Fin 8192) (j : ℕ) (hj : j < 8) (prev : EReal)
    (hprev : prev = edgePart a e r (1024 * j)) (f : Fin 1024 → EReal)
    (hf : ∀ q : Fin 1024, f q = edgeTerm a e r ⟨1024 * j + q.val, by have := q.isLt; omega⟩) :
    prev + ∑ q : Fin 1024, f q = edgePart a e r (1024 * (j + 1)) := by
  rw [edgePart_next, hprev]
  refine congrArg (_ + ·) (Finset.sum_congr rfl fun q _ => ?_)
  exact (hf q).trans (zeroExt_of_lt _ _).symm

/-- The readout at row `r`, output feature `o`. -/
def readoutAt (x : Nodes) (e a : Pairs) (w : Weight) (b : Bias) (r : Fin 8192) (o : Fin 128) : EReal :=
  ((∑ d : Fin 128, x (ix2 r d) * w (ix2 (row1 d) o) + ∑ d : Fin 128, nodeAgg a x r d * w (ix2 (row2 d) o))
    + edgeAgg a e r * w (ix2 row3 o)) + b (ix1 o)

/-- The readout as an array. -/
def readout (x : Nodes) (e a : Pairs) (w : Weight) (b : Bias) : Nodes := fun i => readoutAt x e a w b (i 0) (i 1)

theorem readout_apply (x : Nodes) (e a : Pairs) (w : Weight) (b : Bias) (r : Fin 8192) (o : Fin 128) :
    readout x e a w b (ix2 r o) = readoutAt x e a w b r o := rfl

end Cert.Readout

end
-- ==== Proof.Pieces.lean ====
/-
  What one run of the kernel body leaves behind, case by case, as values.

  The body keeps two running sums in scratch memory: `acc₀` (2048 × 128), the products of the adjacency tile with
  1024 rows of the node features, and `acc₁` (2048 × 1), the row sums of the adjacency tile times the transposed
  edge tile. At the first column block of a row block (case A) it stores zeros into both and then adds the block's
  contribution; at the column blocks in between (case B) it adds the block's contribution to what the point before
  left; at the last column block (case C) it does the same and then stores the combination of the finished sums with
  the weight blocks and the bias into the output block. Each lemma below says that the contents the run found for one
  buffer in one case are the body's arithmetic (the payload of the covering store) applied to the buffers' contents:
  a load through a whole buffer reads its contents, a load of the resident node features at a row offset reads those
  rows, and a load of a scratch the same body has just stored reads what was stored. They hold for any float values.
-/
import proofs.«157056_g52012053954614_cont_9to1_m_572_15_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 1024 rows of the resident node features that column block `i 1` multiplies. -/
abbrev blockRows (i : grid0.Coords) (x0 : Vec F S8192x128 .f32) : Vec F S1024x128 .f32 :=
  View.ld x0 (Rect.unit (k0_off1 i) S1024x128.size (Gen.k0_off1_inb i))

/-- The 2048 rows of the resident node features of row block `i 0` (read at the last column block only). -/
abbrev ownRows (i : grid0.Coords) (hc1 : cond0_1 i) (x0 : Vec F S8192x128 .f32) : Vec F S2048x128 .f32 :=
  View.ld x0 (Rect.unit (k0_off2 i) S2048x128.size (Gen.k0_off2_inb i hc1))

/-! ## Case B: a column block in between -/

theorem acc0_B (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : ¬cond0_0 i) (hc1 : ¬cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) (xs0 : Vec F S2048x128 .f32) (xs1 : Vec F S2048x1 .f32) :
    sout0_B_0 c i a2 h2 a3 h3 a4 h4 a5 h5 a6 h6 a7 h7 a8 h8 a9 h9 a10 h10 a11 h11 hc0 hc1 x0 x1 x2 x3 x4 x5 x6 xs0 xs1 = k0_pay3 x1 (blockRows i x0) xs0 := by
  unfold sout0_B_0
  rw [View.read_writes_eq_canon _ _ _ (scover0_B_0 c i a2 h2 a3 h3 a4 h4 a5 h5 a6 h6 a7 h7 a8 h8 a9 h9 a10 h10 a11 h11 hc0 hc1 x0 x1 x2 x3 x4 x5 x6 xs0 xs1)]
  unfold kernelRun0_B
  dsimp only
  rw [View.canon_unit_zero hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]

theorem acc1_B (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : ¬cond0_0 i) (hc1 : ¬cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) (xs0 : Vec F S2048x128 .f32) (xs1 : Vec F S2048x1 .f32) :
    sout0_B_1 c i a2 h2 a3 h3 a4 h4 a5 h5 a6 h6 a7 h7 a8 h8 a9 h9 a10 h10 a11 h11 hc0 hc1 x0 x1 x2 x3 x4 x5 x6 xs0 xs1 = k0_pay4 x1 x2 xs1 := by
  unfold sout0_B_1
  rw [View.read_writes_eq_canon _ _ _ (scover0_B_1 c i a2 h2 a3 h3 a4 h4 a5 h5 a6 h6 a7 h7 a8 h8 a9 h9 a10 h10 a11 h11 hc0 hc1 x0 x1 x2 x3 x4 x5 x6 xs0 xs1)]
  unfold kernelRun0_B
  dsimp only
  rw [View.canon_unit_zero hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]

/-! ## Case C: the last column block -/

theorem acc0_C (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : ¬cond0_0 i) (hc1 : cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) (xs0 : Vec F S2048x128 .f32) (xs1 : Vec F S2048x1 .f32) :
    sout0_C_0 c i a2 h2 a3 h3 a4 h4 a5 h5 a6 h6 a7 h7 a8 h8 a9 h9 a10 h10 a11 h11 hc0 hc1 x0 x1 x2 x3 x4 x5 x6 xs0 xs1 = k0_pay3 x1 (blockRows i x0) xs0 := by
  unfold sout0_C_0
  rw [View.read_writes_eq_canon _ _ _ (scover0_C_0 c i a2 h2 a3 h3 a4 h4 a5 h5 a6 h6 a7 h7 a8 h8 a9 h9 a10 h10 a11 h11 hc0 hc1 x0 x1 x2 x3 x4 x5 x6 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]
  rfl

theorem acc1_C (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : ¬cond0_0 i) (hc1 : cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) (xs0 : Vec F S2048x128 .f32) (xs1 : Vec F S2048x1 .f32) :
    sout0_C_1 c i a2 h2 a3 h3 a4 h4 a5 h5 a6 h6 a7 h7 a8 h8 a9 h9 a10 h10 a11 h11 hc0 hc1 x0 x1 x2 x3 x4 x5 x6 xs0 xs1 = k0_pay4 x1 x2 xs1 := by
  unfold sout0_C_1
  rw [View.read_writes_eq_canon _ _ _ (scover0_C_1 c i a2 h2 a3 h3 a4 h4 a5 h5 a6 h6 a7 h7 a8 h8 a9 h9 a10 h10 a11 h11 hc0 hc1 x0 x1 x2 x3 x4 x5 x6 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]

/-- The output block: the combination, of the row block's own node features and the two sums AS THE SAME BODY HAS
    JUST UPDATED THEM (its loads of the scratch come after its stores). -/
theorem out_C (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : ¬cond0_0 i) (hc1 : cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) (xs0 : Vec F S2048x128 .f32) (xs1 : Vec F S2048x1 .f32) :
    out0_C_7 c i a2 h2 a3 h3 a4 h4 a5 h5 a6 h6 a7 h7 a8 h8 a9 h9 a10 h10 a11 h11 hc0 hc1 x0 x1 x2 x3 x4 x5 x6 xs0 xs1
      = k0_pay5 (ownRows i hc1 x0) x3 (k0_pay3 x1 (blockRows i x0) xs0) x4 (k0_pay4 x1 x2 xs1) x5 x6 := by
  unfold out0_C_7
  rw [View.read_writes_eq_canon _ _ _ (cover0_C_7 c i a2 h2 a3 h3 a4 h4 a5 h5 a6 h6 a7 h7 a8 h8 a9 h9 a10 h10 a11 h11 hc0 hc1 x0 x1 x2 x3 x4 x5 x6 xs0 xs1)]
  unfold kernelRun0_C
  dsimp only
  sl_unfold_words
  rw [View.canon_unit_zero hz, View.readCov_unit_zero (S := S2048x128) _ hz, View.readCov_unit_zero (S := S2048x1) _ hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]
  rfl

/-! ## Case A: the first column block -/

theorem acc0_A (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : cond0_0 i) (hc1 : ¬cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) :
    sout0_A_0 c i a2 h2 a3 h3 a4 h4 a5 h5 a6 h6 a7 h7 a8 h8 a9 h9 a10 h10 a11 h11 hc0 hc1 x0 x1 x2 x3 x4 x5 x6 = k0_pay3 x1 (blockRows i x0) k0_pay1 := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S2048x128) hz, View.readCov_unit_zero (S := S2048x128) _ hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]
  rfl

theorem acc1_A (c : Dev nD) (i : grid0.Coords) (a2 : Memref sig .tc .vmem S8192x128 .f32) (h2 : a2.IsWhole) (a3 : Memref sig .tc .vmem S2048x1024 .f32) (h3 : a3.IsWhole) (a4 : Memref sig .tc .vmem S1024x2048 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x128 .f32) (h8 : a8.IsWhole) (a9 : Memref sig .tc .vmem S2048x128 .f32) (h9 : a9.IsWhole) (a10 : Memref sig .tc .vmem S2048x128 .f32) (h10 : a10.IsWhole) (a11 : Memref sig .tc .vmem S2048x1 .f32) (h11 : a11.IsWhole) (hc0 : cond0_0 i) (hc1 : ¬cond0_1 i) (x0 : Vec F S8192x128 .f32) (x1 : Vec F S2048x1024 .f32) (x2 : Vec F S1024x2048 .f32) (x3 : Vec F S128x128 .f32) (x4 : Vec F S128x128 .f32) (x5 : Vec F S1x128 .f32) (x6 : Vec F S1x128 .f32) :
    sout0_A_1 c i a2 h2 a3 h3 a4 h4 a5 h5 a6 h6 a7 h7 a8 h8 a9 h9 a10 h10 a11 h11 hc0 hc1 x0 x1 x2 x3 x4 x5 x6 = k0_pay4 x1 x2 k0_pay2 := by
  unfold sout0_A_1
  rw [View.read_writes_eq_canon _ _ _ (scover0_A_1 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S2048x1) hz, View.readCov_unit_zero (S := S2048x1) _ hz]
  simp only [View.readAt_eq_ld, h2.read_unread, h3.read_unread, h4.read_unread, h5.read_unread, h6.read_unread, h7.read_unread, h8.read_unread, h10.read_unread, h11.read_unread, View.ld_unit_zero (S := S2048x1024) hz, View.ld_unit_zero (S := S2048x128) hz, View.ld_unit_zero (S := S1024x2048) hz, View.ld_unit_zero (S := S2048x1) hz, View.ld_unit_zero (S := S128x128) hz, View.ld_unit_zero (S := S1x128) hz]

end Cert.KernelIdeal.Pieces

end
-- ==== Proof.PayloadAt.lean ====
/-
  The body's arithmetic read at one element, on the extended reals.

  Three payloads carry all of it. With `A` the 2048 × 1024 adjacency tile, `X` the 1024 matching rows of the node
  features, `E` the 1024 × 2048 edge tile and `s`, `t` the running sums:

      s' p d = s p d + ∑_q A p q · X q d                       (a matrix product into a zero accumulator, then added)
      t' p   = t p   + ∑_q A p q · E q p                       (the edge tile transposed, times `A`, summed along a row)
      out p o = ((∑_d N p d · W₁ d o + ∑_d s p d · W₂ d o) + t p · w₃ o) + b o

  where `N` is the row block's own node features. On the extended reals a change of float format is the identity, so
  the round trip of the edge tile through a narrower format disappears; a product into a zero accumulator is the plain
  sum of products; a sum along an axis from a zero start is the plain sum. A column vector `[a, 1]` made from a vector
  by a shape cast, and one broadcast along rows, are read here by their row-major positions.
-/
import proofs.«157056_g52012053954614_cont_9to1_m_572_15_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## Column vectors -/

/-- A vector `[a]` cast to a column `[a, 1]` reads, at `(i, u)`, the vector at `i`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
theorem broadcastTo_column_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two matrix products -/

/-- The adjacency tile times 1024 rows of node features: output axis 0 is the left operand's axis 0, -/
theorem adjDot_lhs0 (j : S2048x128.Idx) (q : dot_S2048x1024_S1024x128_S2048x128_1_0_0_1_n_n.contr.Idx) : (dot_S2048x1024_S1024x128_S2048x128_1_0_0_1_n_n.lhsIdx j q 0).val = (j 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl

/-- and output axis 1 is the right operand's axis 1. -/
theorem adjDot_rhs1 (j : S2048x128.Idx) (q : dot_S2048x1024_S1024x128_S2048x128_1_0_0_1_n_n.contr.Idx) : (dot_S2048x1024_S1024x128_S2048x128_1_0_0_1_n_n.rhsIdx j q 1).val = (j 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- So the product into a zero accumulator, at `(p, d)`, is `∑ q, l p q · r q d` over the 1024 contracted coordinates. -/
theorem adjDot_apply (l : FVec Ideal S2048x1024 .f32) (r : FVec Ideal S1024x128 .f32) (p : Fin 2048) (d : Fin 128) :
    matmul dot_S2048x1024_S1024x128_S2048x128_1_0_0_1_n_n none l r (constant (F := Ideal) S2048x128 .f32 0x00000000#32) (ix2 p d)
      = ∑ q : Fin 1024, l (ix2 p q) * r (ix2 q d) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p d) ((contrEquiv1 dot_S2048x1024_S1024x128_S2048x128_1_0_0_1_n_n 1024 rfl rfl).symm k) = ix2 p k := funext fun a => Fin.ext (by
    match a with
    | ⟨0, _⟩ => exact adjDot_lhs0 _ _
    | ⟨1, _⟩ => exact (dot_S2048x1024_S1024x128_S2048x128_1_0_0_1_n_n.lhsIdx_val_of_single rfl _ _).trans hk)
  have er : dot_S2048x1024_S1024x128_S2048x128_1_0_0_1_n_n.rhsIdx (ix2 p d) ((contrEquiv1 dot_S2048x1024_S1024x128_S2048x128_1_0_0_1_n_n 1024 rfl rfl).symm k) = ix2 k d := funext fun a => Fin.ext (by
    match a with
    | ⟨0, _⟩ => exact (dot_S2048x1024_S1024x128_S2048x128_1_0_0_1_n_n.rhsIdx_val_of_single rfl _ _).trans hk
    | ⟨1, _⟩ => exact adjDot_rhs1 _ _)
  rw [el, er]

/-- A 2048 × 128 block times a 128 × 128 block of the weight: output axis 0 is the left operand's axis 0, -/
theorem wDot_lhs0 (j : S2048x128.Idx) (q : dot_S2048x128_S128x128_S2048x128_1_0_0_1_n_n.contr.Idx) : (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl

/-- and output axis 1 is the right operand's axis 1. -/
theorem wDot_rhs1 (j : S2048x128.Idx) (q : dot_S2048x128_S128x128_S2048x128_1_0_0_1_n_n.contr.Idx) : (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- So the product into a zero accumulator, at `(p, d)`, is `∑ q, l p q · r q d` over the 128 contracted coordinates. -/
theorem wDot_apply (l : FVec Ideal S2048x128 .f32) (r : FVec Ideal S128x128 .f32) (p : Fin 2048) (d : Fin 128) :
    matmul dot_S2048x128_S128x128_S2048x128_1_0_0_1_n_n none l r (constant (F := Ideal) S2048x128 .f32 0x00000000#32) (ix2 p d)
      = ∑ q : Fin 128, l (ix2 p q) * r (ix2 q d) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p d) ((contrEquiv1 dot_S2048x128_S128x128_S2048x128_1_0_0_1_n_n 128 rfl rfl).symm k) = ix2 p k := funext fun a => Fin.ext (by
    match a with
    | ⟨0, _⟩ => exact wDot_lhs0 _ _
    | ⟨1, _⟩ => exact (dot_S2048x128_S128x128_S2048x128_1_0_0_1_n_n.lhsIdx_val_of_single rfl _ _).trans hk)
  have er : dot_S2048x128_S128x128_S2048x128_1_0_0_1_n_n.rhsIdx (ix2 p d) ((contrEquiv1 dot_S2048x128_S128x128_S2048x128_1_0_0_1_n_n 128 rfl rfl).symm k) = ix2 k d := funext fun a => Fin.ext (by
    match a with
    | ⟨0, _⟩ => exact (dot_S2048x128_S128x128_S2048x128_1_0_0_1_n_n.rhsIdx_val_of_single rfl _ _).trans hk
    | ⟨1, _⟩ => exact wDot_rhs1 _ _)
  rw [el, er]

/-! ## The payloads -/

/-- The node sum's update: what was there plus the tile's products. -/
theorem pay3_apply (v3 : Vec Ideal S2048x1024 .f32) (v6 : Vec Ideal S1024x128 .f32) (v7 : Vec Ideal S2048x128 .f32)
    (p : Fin 2048) (d : Fin 128) :
    k0_pay3 v3 v6 v7 (ix2 p d) = v7 (ix2 p d) + ∑ q : Fin 1024, v3 (ix2 p q) * v6 (ix2 q d) := by
  unfold k0_pay3
  rw [shapeCast_self]
  exact congrArg (v7 (ix2 p d) + ·) (adjDot_apply v3 v6 p d)

/-- The lane sum of a 2048 × 1024 block along its rows, from the zero word: the plain sum over the 1024 columns. -/
theorem rowSum_apply (src : FVec Ideal S2048x1024 .f32) (h : S2048x1024.Reduces [1] S2048) (hφ : FKind.Formats .f32)
    (hacc : (0x00000000#32 : BitVec 32) = 0x00000000#32) (p : Fin 2048) :
    multiReduction .add [1] S2048 src 0x00000000#32 h hφ hacc (ix1 p) = ∑ q : Fin 1024, src (ix2 p q) := by
  refine (Ideal.multiReduction_add_single src 0x00000000#32 h hφ hacc (ix1 p)).trans ?_
  refine Finset.sum_congr rfl fun q _ => congrArg src (funext fun a => Fin.ext ?_)
  match a with
  | ⟨0, _⟩ => rfl
  | ⟨1, _⟩ => rfl

/-- The edge sum's update: what was there plus the row sum of the tile times the transposed edge tile. -/
theorem pay4_apply (v3 : Vec Ideal S2048x1024 .f32) (v13 : Vec Ideal S1024x2048 .f32) (v17 : Vec Ideal S2048x1 .f32)
    (p : Fin 2048) :
    k0_pay4 v3 v13 v17 (ix2 p (0 : Fin 1)) = v17 (ix2 p (0 : Fin 1)) + ∑ q : Fin 1024, v3 (ix2 p q) * v13 (ix2 q p) := by
  unfold k0_pay4
  dsimp only
  rw [shapeCast_self]
  refine congrArg (v17 (ix2 p (0 : Fin 1)) + ·) ?_
  refine (shapeCast_column_apply _ _ p (0 : Fin 1)).trans ?_
  refine (rowSum_apply _ _ _ _ p).trans ?_
  refine Finset.sum_congr rfl fun q _ => ?_
  show v3 (ix2 p q) * _ = _
  refine congrArg (v3 (ix2 p q) * ·) ?_
  exact transpose_ix2_apply (a := 1024) (b := 2048) v13 _ p q

/-- The combination stored into the output block. -/
theorem pay5_apply (v30 : Vec Ideal S2048x128 .f32) (v31 : Vec Ideal S128x128 .f32) (v34 : Vec Ideal S2048x128 .f32)
    (v35 : Vec Ideal S128x128 .f32) (v39 : Vec Ideal S2048x1 .f32) (v40 v46 : Vec Ideal S1x128 .f32) (p : Fin 2048) (o : Fin 128) :
    k0_pay5 v30 v31 v34 v35 v39 v40 v46 (ix2 p o)
      = ((∑ d : Fin 128, v30 (ix2 p d) * v31 (ix2 d o) + ∑ d : Fin 128, v34 (ix2 p d) * v35 (ix2 d o))
          + v39 (ix2 p (0 : Fin 1)) * v40 (ix2 (0 : Fin 1) o)) + v46 (ix2 (0 : Fin 1) o) := by
  unfold k0_pay5
  rw [shapeCast_self, shapeCast_self, shapeCast_self, shapeCast_self]
  rw [addf_apply, addf_apply, addf_apply, mulf_apply]
  rw [wDot_apply v30 v31 p o, wDot_apply v34 v35 p o,
    broadcastTo_column_apply v39 _ p o, broadcastTo_1b_ab_apply v40 _ p o, broadcastTo_1b_ab_apply v46 _ p o]

end Cert.KernelIdeal.PayloadAt

end
-- ==== Proof.Blocks.lean ====
/-
  What each window's block holds, read at one element.

  The grid has 4 × 8 points; point `t` works on row block `t / 8` (2048 rows) and column block `t % 8` (1024 columns).
  There the adjacency window holds rows `2048·(t/8) + p`, columns `1024·(t%8) + q` of the adjacency; the edge window,
  indexed the other way round, holds rows `1024·(t%8) + q`, columns `2048·(t/8) + p` of the edge features; the node
  features are resident whole; the three weight windows hold rows `0…127`, `128…255` and `256` of the weight (slices
  taken before the kernel is launched) and the bias window holds the bias as one row. The two in-kernel row offsets into
  the resident node features are `1024·(t%8)` and `2048·(t/8)`.
-/
import proofs.«157056_g52012053954614_cont_9to1_m_572_15_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-! ## The index maps over the grid -/

theorem index_nodes : ∀ t : Fin cfg0.N, win0_0.index t 0 = 0 ∧ win0_0.index t 1 = 0 :=
  (by decide +kernel : ∀ t : Fin grid0.N, _)
theorem index_adj : ∀ t : Fin cfg0.N, win0_1.index t 0 = t.val / 8 ∧ win0_1.index t 1 = t.val % 8 :=
  (by decide +kernel : ∀ t : Fin grid0.N, _)
theorem index_edge : ∀ t : Fin cfg0.N, win0_2.index t 0 = t.val % 8 ∧ win0_2.index t 1 = t.val / 8 :=
  (by decide +kernel : ∀ t : Fin grid0.N, _)
theorem index_w1 : ∀ t : Fin cfg0.N, win0_3.index t 0 = 0 ∧ win0_3.index t 1 = 0 :=
  (by decide +kernel : ∀ t : Fin grid0.N, _)
theorem index_w2 : ∀ t : Fin cfg0.N, win0_4.index t 0 = 0 ∧ win0_4.index t 1 = 0 :=
  (by decide +kernel : ∀ t : Fin grid0.N, _)
theorem index_w3 : ∀ t : Fin cfg0.N, win0_5.index t 0 = 0 ∧ win0_5.index t 1 = 0 :=
  (by decide +kernel : ∀ t : Fin grid0.N, _)
theorem index_bias : ∀ t : Fin cfg0.N, win0_6.index t 0 = 0 ∧ win0_6.index t 1 = 0 :=
  (by decide +kernel : ∀ t : Fin grid0.N, _)
theorem index_out : ∀ t : Fin cfg0.N, win0_7.index t 0 = t.val / 8 ∧ win0_7.index t 1 = 0 :=
  (by decide +kernel : ∀ t : Fin grid0.N, _)
theorem off_block : ∀ t : Fin cfg0.N, k0_off1 (grid0.coords t) 0 = 1024 * (t.val % 8) ∧ k0_off1 (grid0.coords t) 1 = 0 :=
  (by decide +kernel : ∀ t : Fin grid0.N, _)
theorem off_own : ∀ t : Fin cfg0.N, k0_off2 (grid0.coords t) 0 = 2048 * (t.val / 8) ∧ k0_off2 (grid0.coords t) 1 = 0 :=
  (by decide +kernel : ∀ t : Fin grid0.N, _)

/-! ## The blocks of the three argument windows -/

theorem nodes_apply (c : Dev nD) (t : Fin cfg0.N) (k : Fin 8192) (d : Fin 128) :
    (iblk m c 0 t : Vec F S8192x128 .f32) (ix2 k d) = m ((c : Thread nD τ).loc main_arg0) (ix2 k d) := by
  unfold iblk
  rw [View.read_apply]
  show V m c main_arg0 _ = _
  rw [V_main_arg0]
  refine congrArg _ (funext fun a => Fin.ext ?_)
  match a with
  | ⟨0, _⟩ => show win0_0.index t 0 * 8192 + 1 * k.val = k.val; rw [(index_nodes t).1]; omega
  | ⟨1, _⟩ => show win0_0.index t 1 * 128 + 1 * d.val = d.val; rw [(index_nodes t).2]; omega

theorem adj_apply (c : Dev nD) (t : Fin cfg0.N) (p : Fin 2048) (q : Fin 1024) (r k : Fin 8192)
    (hr : r.val = 2048 * (t.val / 8) + p.val) (hk : k.val = 1024 * (t.val % 8) + q.val) :
    (iblk m c 1 t : Vec F S2048x1024 .f32) (ix2 p q) = m ((c : Thread nD τ).loc main_arg2) (ix2 r k) := by
  unfold iblk
  rw [View.read_apply]
  show V m c main_arg2 _ = _
  rw [V_main_arg2]
  refine congrArg _ (funext fun a => Fin.ext ?_)
  match a with
  | ⟨0, _⟩ => show win0_1.index t 0 * 2048 + 1 * p.val = r.val; rw [(index_adj t).1, hr]; omega
  | ⟨1, _⟩ => show win0_1.index t 1 * 1024 + 1 * q.val = k.val; rw [(index_adj t).2, hk]; omega

theorem edge_apply (c : Dev nD) (t : Fin cfg0.N) (q : Fin 1024) (p : Fin 2048) (r k : Fin 8192)
    (hr : r.val = 2048 * (t.val / 8) + p.val) (hk : k.val = 1024 * (t.val % 8) + q.val) :
    (iblk m c 2 t : Vec F S1024x2048 .f32) (ix2 q p) = m ((c : Thread nD τ).loc main_arg1) (ix2 k r) := by
  unfold iblk
  rw [View.read_apply]
  show V m c main_arg1 _ = _
  rw [V_main_arg1]
  refine congrArg _ (funext fun a => Fin.ext ?_)
  match a with
  | ⟨0, _⟩ => show win0_2.index t 0 * 1024 + 1 * q.val = k.val; rw [(index_edge t).1, hk]; omega
  | ⟨1, _⟩ => show win0_2.index t 1 * 2048 + 1 * p.val = r.val; rw [(index_edge t).2, hr]; omega

/-! ## The weight blocks and the bias row: arrays written before the launch -/

/-- The first weight window's array is rows 0 … 127 of the weight; -/
theorem arr_w1 (c : Dev nD) : (V m c main_call0_v0 : S128x128.Idx → Elt F .f32)
    = extractStridedSlice S128x128 ![0, 0] (m ((c : Thread nD τ).loc main_arg3)) Gen.slices_S257x128_S128x128_0_0 := by
  dsimp only [Gen.V, Gen.hostOps0]; after_results; rfl

/-- the second's is rows 128 … 255; -/
theorem arr_w2 (c : Dev nD) : (V m c main_call0_v1 : S128x128.Idx → Elt F .f32)
    = extractStridedSlice S128x128 ![128, 0] (m ((c : Thread nD τ).loc main_arg3)) Gen.slices_S257x128_S128x128_128_0 := by
  dsimp only [Gen.V, Gen.hostOps0]; after_results; rfl

/-- the third's is row 256; -/
theorem arr_w3 (c : Dev nD) : (V m c main_call0_v2 : S1x128.Idx → Elt F .f32)
    = extractStridedSlice S1x128 ![256, 0] (m ((c : Thread nD τ).loc main_arg3)) Gen.slices_S257x128_S1x128_256_0 := by
  dsimp only [Gen.V, Gen.hostOps0]; after_results; rfl

/-- and the bias window's is the bias reshaped to one row. -/
theorem arr_bias (c : Dev nD) : (V m c main_call0_v3 : S1x128.Idx → Elt F .f32)
    = shapeCast S1x128 (m ((c : Thread nD τ).loc main_arg4)) Gen.shapeCasts_S128_S1x128 := by
  dsimp only [Gen.V, Gen.hostOps0]; after_results; rfl

theorem w1_apply (c : Dev nD) (t : Fin cfg0.N) (d o : Fin 128) (k : Fin 257) (hk : k.val = d.val) :
    (iblk m c 3 t : Vec F S128x128 .f32) (ix2 d o) = m ((c : Thread nD τ).loc main_arg3) (ix2 k o) := by
  unfold iblk
  rw [View.read_apply]
  show V m c main_call0_v0 _ = _
  rw [arr_w1]
  unfold extractStridedSlice
  refine congrArg _ (funext fun a => Fin.ext ?_)
  match a with
  | ⟨0, _⟩ => show 0 + (win0_3.index t 0 * 128 + 1 * d.val) = k.val; rw [(index_w1 t).1, hk]; omega
  | ⟨1, _⟩ => show 0 + (win0_3.index t 1 * 128 + 1 * o.val) = o.val; rw [(index_w1 t).2]; omega

theorem w2_apply (c : Dev nD) (t : Fin cfg0.N) (d o : Fin 128) (k : Fin 257) (hk : k.val = 128 + d.val) :
    (iblk m c 4 t : Vec F S128x128 .f32) (ix2 d o) = m ((c : Thread nD τ).loc main_arg3) (ix2 k o) := by
  unfold iblk
  rw [View.read_apply]
  show V m c main_call0_v1 _ = _
  rw [arr_w2]
  unfold extractStridedSlice
  refine congrArg _ (funext fun a => Fin.ext ?_)
  match a with
  | ⟨0, _⟩ => show 128 + (win0_4.index t 0 * 128 + 1 * d.val) = k.val; rw [(index_w2 t).1, hk]; omega
  | ⟨1, _⟩ => show 0 + (win0_4.index t 1 * 128 + 1 * o.val) = o.val; rw [(index_w2 t).2]; omega

theorem w3_apply (c : Dev nD) (t : Fin cfg0.N) (o : Fin 128) (k : Fin 257) (hk : k.val = 256) :
    (iblk m c 5 t : Vec F S1x128 .f32) (ix2 (0 : Fin 1) o) = m ((c : Thread nD τ).loc main_arg3) (ix2 k o) := by
  unfold iblk
  rw [View.read_apply]
  show V m c main_call0_v2 _ = _
  rw [arr_w3]
  unfold extractStridedSlice
  refine congrArg _ (funext fun a => Fin.ext ?_)
  match a with
  | ⟨0, _⟩ => show 256 + (win0_5.index t 0 * 1 + 1 * 0) = k.val; rw [(index_w3 t).1, hk]
  | ⟨1, _⟩ => show 0 + (win0_5.index t 1 * 128 + 1 * o.val) = o.val; rw [(index_w3 t).2]; omega

theorem bias_apply (c : Dev nD) (t : Fin cfg0.N) (o : Fin 128) :
    (iblk m c 6 t : Vec F S1x128 .f32) (ix2 (0 : Fin 1) o) = m ((c : Thread nD τ).loc main_arg4) (ix1 o) := by
  unfold iblk
  rw [View.read_apply]
  show V m c main_call0_v3 _ = _
  rw [arr_bias]
  have e : ((cfg0.win 6).blk t).view.emb (ix2 (0 : Fin 1) o) = ix2 (0 : Fin 1) o := funext fun a => Fin.ext (by
    match a with
    | ⟨0, _⟩ => show win0_6.index t 0 * 1 + 1 * 0 = 0; rw [(index_bias t).1]
    | ⟨1, _⟩ => show win0_6.index t 1 * 128 + 1 * o.val = o.val; rw [(index_bias t).2]; omega)
  rw [e]
  exact shapeCast_a_1a_apply _ _ (0 : Fin 1) o

/-! ## The two loads of rows of the resident node features -/

/-- The load at the column block's offset reads rows `1024·(t%8) + q`. -/
theorem blockRows_apply (x0 : Vec F S8192x128 .f32) (t : Fin cfg0.N) (q : Fin 1024) (d : Fin 128) (k : Fin 8192)
    (hk : k.val = 1024 * (t.val % 8) + q.val) :
    (View.ld x0 (Rect.unit (k0_off1 (grid0.coords t)) S1024x128.size (Gen.k0_off1_inb (grid0.coords t)))
      : Vec F S1024x128 .f32) (ix2 q d) = x0 (ix2 k d) := by
  refine congrArg x0 (funext fun a => Fin.ext ?_)
  match a with
  | ⟨0, _⟩ => show k0_off1 (grid0.coords t) 0 + 1 * q.val = k.val; rw [(off_block t).1, hk]; omega
  | ⟨1, _⟩ => show k0_off1 (grid0.coords t) 1 + 1 * d.val = d.val; rw [(off_block t).2]; omega

/-- The load at the row block's offset reads rows `2048·(t/8) + p`. -/
theorem ownRows_apply (x0 : Vec F S8192x128 .f32) (t : Fin cfg0.N) (hc1 : cond0_1 (grid0.coords t)) (p : Fin 2048) (d : Fin 128)
    (r : Fin 8192) (hr : r.val = 2048 * (t.val / 8) + p.val) :
    (View.ld x0 (Rect.unit (k0_off2 (grid0.coords t)) S2048x128.size (Gen.k0_off2_inb (grid0.coords t) hc1))
      : Vec F S2048x128 .f32) (ix2 p d) = x0 (ix2 r d) := by
  refine congrArg x0 (funext fun a => Fin.ext ?_)
  match a with
  | ⟨0, _⟩ => show k0_off2 (grid0.coords t) 0 + 1 * p.val = r.val; rw [(off_own t).1, hr]; omega
  | ⟨1, _⟩ => show k0_off2 (grid0.coords t) 1 + 1 * d.val = d.val; rw [(off_own t).2]; omega

end Cert.KernelIdeal.Blocks

end
-- ==== Proof.Accum.lean ====
/-
  The two running sums, point by point.

  Row block `i` is worked on at the eight consecutive points `t = 8·i, …, 8·i + 7`, one column block each. The claim
  proved here, by induction on the point, is that after point `t` the scratch buffers hold, at local row `p`,

      node sum:  ∑ over the first 1024·(t%8 + 1) columns k of  a r k · x k d,
      edge sum:  ∑ over the first 1024·(t%8 + 1) columns k of  a r k · e k r,        r = 2048·(t/8) + p.

  At `t % 8 = 0` the body first stores zeros, so what it leaves is `0 +` the first block's 1024 terms; at the other
  points it adds the next block's 1024 terms to what the point before left, which by induction is the sum over the
  columns before. Each step is "a sum over `0 … 1024·(j+1)` is the sum over `0 … 1024·j` plus the next 1024 terms":
  only additions are regrouped. After the last point of a row block (`t % 8 = 7`) the sums run over all 8192 columns.
-/
import proofs.«157056_g52012053954614_cont_9to1_m_572_15_alg».proof.Proof.Spec
import proofs.«157056_g52012053954614_cont_9to1_m_572_15_alg».proof.Proof.Pieces
import proofs.«157056_g52012053954614_cont_9to1_m_572_15_alg».proof.Proof.PayloadAt
import proofs.«157056_g52012053954614_cont_9to1_m_572_15_alg».proof.Proof.Blocks

noncomputable section

open scoped BigOperators
open Idealize.ShloMosaic Idealize.ShloMosaic.TcCoe Idealize.SL.Sem

namespace Cert.KernelIdeal.Accum

open Cert.KernelIdeal Cert.KernelIdeal.Gen Cert.Readout Idealize.ShloMosaic.ValueIdx

variable (m : (ℓ : Loc nD τ sig) → Buf (Elt Ideal) ℓ)

/-- The five argument arrays as the kernel is launched: node features, -/
abbrev X (c : Dev nD) : Nodes := m ((c : Thread nD τ).loc main_arg0)
/-- edge features, -/
abbrev E (c : Dev nD) : Pairs := m ((c : Thread nD τ).loc main_arg1)
/-- adjacency, -/
abbrev A (c : Dev nD) : Pairs := m ((c : Thread nD τ).loc main_arg2)
/-- weight -/
abbrev W (c : Dev nD) : Weight := m ((c : Thread nD τ).loc main_arg3)
/-- and bias. -/
abbrev B (c : Dev nD) : Bias := m ((c : Thread nD τ).loc main_arg4)

theorem N32 : cfg0.N = 32 := N_0

/-- Local row `p` of the row block worked on at point `n`, as a row of the arrays. -/
def rowAt (n : ℕ) (hn : n < cfg0.N) (p : Fin 2048) : Fin 8192 :=
  ⟨2048 * (n / 8) + p.val, by have := lt_of_lt_of_eq hn N32; have := p.isLt; omega⟩

/-- Local column `q` of the column block worked on at point `n`, as a column of the adjacency. -/
def colAt (n : ℕ) (q : Fin 1024) : Fin 8192 :=
  ⟨1024 * (n % 8) + q.val, by have := q.isLt; have := Nat.mod_lt n (by decide : 0 < 8); omega⟩

/-- The adjacency tile at point `t`, -/
abbrev adjTile (c : Dev nD) (t : Fin cfg0.N) : Vec Ideal S2048x1024 .f32 := iblk m c 1 t
/-- the edge tile, -/
abbrev edgeTile (c : Dev nD) (t : Fin cfg0.N) : Vec Ideal S1024x2048 .f32 := iblk m c 2 t
/-- and the 1024 rows of the node features that match the tile's columns. -/
abbrev nodeRows (c : Dev nD) (t : Fin cfg0.N) : Vec Ideal S1024x128 .f32 := Pieces.blockRows (grid0.coords t) (iblk m c 0 t)

/-! ## The stored zeros -/

theorem zeros_apply (p : Fin 2048) (d : Fin 128) : (k0_pay1 (F := Ideal)) (ix2 p d) = 0 := by
  unfold k0_pay1
  rw [shapeCast_self]
  exact Ideal.ofBits_zero_f32

theorem zeros_col_apply (p : Fin 2048) : (k0_pay2 (F := Ideal)) (ix2 p (0 : Fin 1)) = 0 := by
  unfold k0_pay2
  rw [shapeCast_self]
  exact Ideal.ofBits_zero_f32

/-! ## One block's terms -/

/-- A product of the adjacency tile with the block's rows of node features is a term of the neighbour sum. -/
theorem node_term (c : Dev nD) (t : Fin cfg0.N) (p : Fin 2048) (d : Fin 128) (q : Fin 1024) :
    adjTile m c t (ix2 p q) * nodeRows m c t (ix2 q d)
      = nodeTerm (A m c) (X m c) (rowAt t.val t.isLt p) d (colAt t.val q) :=
  congrArg₂ (· * ·) (Blocks.adj_apply m c t p q (rowAt t.val t.isLt p) (colAt t.val q) rfl rfl)
    ((Blocks.blockRows_apply (iblk m c 0 t) t q d (colAt t.val q) rfl).trans (Blocks.nodes_apply m c t (colAt t.val q) d))

/-- A product of the adjacency tile with the transposed edge tile is a term of the edge sum. -/
theorem edge_term (c : Dev nD) (t : Fin cfg0.N) (p : Fin 2048) (q : Fin 1024) :
    adjTile m c t (ix2 p q) * edgeTile m c t (ix2 q p)
      = edgeTerm (A m c) (E m c) (rowAt t.val t.isLt p) (colAt t.val q) :=
  congrArg₂ (· * ·) (Blocks.adj_apply m c t p q (rowAt t.val t.isLt p) (colAt t.val q) rfl rfl)
    (Blocks.edge_apply m c t q p (rowAt t.val t.isLt p) (colAt t.val q) rfl rfl)

/-- The node sum's update at point `t`, over contents `s` that hold the sum over the columns before. -/
theorem node_update (c : Dev nD) (t : Fin cfg0.N) (s : Vec Ideal S2048x128 .f32) (p : Fin 2048) (d : Fin 128)
    (hs : s (ix2 p d) = nodePart (A m c) (X m c) (rowAt t.val t.isLt p) d (1024 * (t.val % 8))) :
    k0_pay3 (iblk m c 1 t) (Pieces.blockRows (grid0.coords t) (iblk m c 0 t)) s (ix2 p d)
      = nodePart (A m c) (X m c) (rowAt t.val t.isLt p) d (1024 * (t.val % 8 + 1)) := by
  refine (PayloadAt.pay3_apply (iblk m c 1 t) (Pieces.blockRows (grid0.coords t) (iblk m c 0 t)) s p d).trans ?_
  exact nodePart_step (A m c) (X m c) (rowAt t.val t.isLt p) d (t.val % 8) (Nat.mod_lt _ (by decide)) _ hs _
    (fun q => node_term m c t p d q)

/-- The edge sum's update likewise. -/
theorem edge_update (c : Dev nD) (t : Fin cfg0.N) (s : Vec Ideal S2048x1 .f32) (p : Fin 2048)
    (hs : s (ix2 p (0 : Fin 1)) = edgePart (A m c) (E m c) (rowAt t.val t.isLt p) (1024 * (t.val % 8))) :
    k0_pay4 (iblk m c 1 t) (iblk m c 2 t) s (ix2 p (0 : Fin 1))
      = edgePart (A m c) (E m c) (rowAt t.val t.isLt p) (1024 * (t.val % 8 + 1)) := by
  refine (PayloadAt.pay4_apply (iblk m c 1 t) (iblk m c 2 t) s p).trans ?_
  exact edgePart_step (A m c) (E m c) (rowAt t.val t.isLt p) (t.val % 8) (Nat.mod_lt _ (by decide)) _ hs _
    (fun q => edge_term m c t p q)

/-! ## The induction -/

/-- After point `n` both scratch buffers hold the sums over the first `1024·(n%8 + 1)` columns. -/
def SumsAt (c : Dev nD) (n : ℕ) (h : n < cfg0.N) : Prop :=
  ∀ p : Fin 2048,
    (∀ d : Fin 128, (outsAt0 m c n h).2.1 (ix2 p d) = nodePart (A m c) (X m c) (rowAt n h p) d (1024 * (n % 8 + 1)))
    ∧ (outsAt0 m c n h).2.2 (ix2 p (0 : Fin 1)) = edgePart (A m c) (E m c) (rowAt n h p) (1024 * (n % 8 + 1))

/-- What the point before left is the sum over the columns before this point's block (not at the first column block). -/
theorem before (c : Dev nD) (t : Fin cfg0.N) (h0 : ¬t.val % 8 = 0)
    (ih : SumsAt m c (t.val - 1) (Nat.lt_of_le_of_lt (Nat.sub_le _ _) t.isLt)) (p : Fin 2048) :
    (∀ d : Fin 128, (outsAt0 m c (t.val - 1) (Nat.lt_of_le_of_lt (Nat.sub_le _ _) t.isLt)).2.1 (ix2 p d) = nodePart (A m c) (X m c) (rowAt t.val t.isLt p) d (1024 * (t.val % 8)))
    ∧ (outsAt0 m c (t.val - 1) (Nat.lt_of_le_of_lt (Nat.sub_le _ _) t.isLt)).2.2 (ix2 p (0 : Fin 1)) = edgePart (A m c) (E m c) (rowAt t.val t.isLt p) (1024 * (t.val % 8)) := by
  have hN := lt_of_lt_of_eq t.isLt N32
  have er : rowAt (t.val - 1) (Nat.lt_of_le_of_lt (Nat.sub_le _ _) t.isLt) p = rowAt t.val t.isLt p :=
    Fin.ext (by show 2048 * ((t.val - 1) / 8) + p.val = 2048 * (t.val / 8) + p.val; omega)
  have en : (t.val - 1) % 8 + 1 = t.val % 8 := by omega
  obtain ⟨h1, h2⟩ := ih p
  refine ⟨fun d => ?_, ?_⟩
  · rw [h1 d, er, en]
  · rw [h2, er, en]

/-- What a point past the first column block computes into the two sums, given the induction hypothesis. -/
theorem carried (c : Dev nD) (t : Fin cfg0.N) (h0 : ¬t.val % 8 = 0)
    (ih : SumsAt m c (t.val - 1) (Nat.lt_of_le_of_lt (Nat.sub_le _ _) t.isLt)) (p : Fin 2048) :
    (∀ d : Fin 128, k0_pay3 (iblk m c 1 t) (Pieces.blockRows (grid0.coords t) (iblk m c 0 t)) (outsAt0 m c (t.val - 1) (Nat.lt_of_le_of_lt (Nat.sub_le _ _) t.isLt)).2.1 (ix2 p d)
        = nodePart (A m c) (X m c) (rowAt t.val t.isLt p) d (1024 * (t.val % 8 + 1)))
    ∧ k0_pay4 (iblk m c 1 t) (iblk m c 2 t) (outsAt0 m c (t.val - 1) (Nat.lt_of_le_of_lt (Nat.sub_le _ _) t.isLt)).2.2 (ix2 p (0 : Fin 1))
        = edgePart (A m c) (E m c) (rowAt t.val t.isLt p) (1024 * (t.val % 8 + 1)) :=
  ⟨fun d => node_update m c t _ p d ((before m c t h0 ih p).1 d), edge_update m c t _ p (before m c t h0 ih p).2⟩

theorem sums_first (c : Dev nD) (t : Fin cfg0.N) (h0 : t.val % 8 = 0) : SumsAt m c t.val t.isLt := by
  have h1 : ¬t.val % 8 = 7 := by omega
  intro p
  rw [outsAt0_A m c t h0 h1]
  dsimp only
  rw [Pieces.acc0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
    Pieces.acc1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)]
  refine ⟨fun d => node_update m c t _ p d ?_, edge_update m c t _ p ?_⟩
  · rw [h0, Nat.mul_zero, nodePart_zero]; exact zeros_apply p d
  · rw [h0, Nat.mul_zero, edgePart_zero]; exact zeros_col_apply p

theorem sums_next (c : Dev nD) (t : Fin cfg0.N) (h0 : ¬t.val % 8 = 0)
    (ih : SumsAt m c (t.val - 1) (Nat.lt_of_le_of_lt (Nat.sub_le _ _) t.isLt)) : SumsAt m c t.val t.isLt := by
  intro p
  by_cases h1 : t.val % 8 = 7
  · rw [outsAt0_C m c t h0 h1]
    dsimp only
    rw [Pieces.acc0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
      Pieces.acc1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2]
    exact carried m c t h0 ih p
  · rw [outsAt0_B m c t h0 h1]
    dsimp only
    rw [Pieces.acc0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
      Pieces.acc1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2]
    exact carried m c t h0 ih p

/-- The invariant at every point. -/
theorem sums_at (c : Dev nD) : ∀ (n : ℕ) (h : n < cfg0.N), SumsAt m c n h
  | 0, h => sums_first m c ⟨0, h⟩ rfl
  | n + 1, h => by
    by_cases h0 : (n + 1) % 8 = 0
    · exact sums_first m c ⟨n + 1, h⟩ h0
    · exact sums_next m c ⟨n + 1, h⟩ h0 (sums_at c n (Nat.lt_of_succ_lt h))

end Cert.KernelIdeal.Accum

end
-- ==== Proof.Result.lean ====
/-
  The kernel's result array is the readout.

  The output window is written back only after the last column block of a row block (`t % 8 = 7`). By then the two
  running sums run over all 8192 columns, so they are the neighbour sums `(a x) r d` and `∑_k a r k · e k r`, and what
  the body stores is

      ((∑_d x r d · w d o + ∑_d (a x) r d · w (128 + d) o) + (∑_k a r k · e k r) · w 256 o) + b o,    r = 2048·(t/8) + p,

  the readout at `(r, o)`: the block written back at point `t` is block `t / 8` of the readout. The four flushing
  points `7, 15, 23, 31` write the four row blocks, which cover the array (row `r` lies in block `r / 2048`).
-/
import proofs.«157056_g52012053954614_cont_9to1_m_572_15_alg».proof.Proof.Accum
import proofs.«157056_g52012053954614_cont_9to1_m_572_15_alg».proof.Proof.Gen.KernelIdeal.Value

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Accum Cert.Readout Idealize.ShloMosaic.ValueIdx

variable (m : (ℓ : Loc nD τ sig) → Buf (Elt Ideal) ℓ) (ρ : Dev nD → PrngReg)

/-- The readout of the arrays the kernel was launched with. -/
abbrev out (c : Dev nD) : Nodes := readout (X m c) (E m c) (A m c) (W m c) (B m c)

/-- Local entry `(p, o)` of the output block at point `t` is entry `(2048·(t/8) + p, o)` of the array. -/
theorem out_entry (t : Fin cfg0.N) (p : Fin 2048) (o : Fin 128) :
    ((cfg0.win 7).blk t).view.emb (ix2 p o) = ix2 (rowAt t.val t.isLt p) o := funext fun a => Fin.ext (by
  match a with
  | ⟨0, _⟩ => show win0_7.index t 0 * 2048 + 1 * p.val = 2048 * (t.val / 8) + p.val; rw [(Blocks.index_out t).1]; omega
  | ⟨1, _⟩ => show win0_7.index t 1 * 128 + 1 * o.val = o.val; rw [(Blocks.index_out t).2]; omega)

/-- What a flushing point writes back is its block of the readout. -/
theorem flushed_eq (c : Dev nD) (t : Fin cfg0.N) (hf : (cfg0.win 7).flush t = true) :
    (dats m 0 c).flushed 7 t = ((cfg0.win 7).blk t).view.read (Elt Ideal) (out m c) := by
  have h1 : t.val % 8 = 7 := (flush0_7 t).mp hf
  have h0 : ¬t.val % 8 = 0 := by omega
  rw [Value.flushed7_C m c t h0 h1,
    Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2]
  funext j
  obtain ⟨p, o, rfl⟩ : ∃ (p : Fin 2048) (o : Fin 128), j = ix2 p o := ⟨j 0, j 1, eq_ix2 j⟩
  show k0_pay5 (Pieces.ownRows (grid0.coords t) ((hcond0_1 t).mpr h1) (iblk m c 0 t)) (iblk m c 3 t)
      (k0_pay3 (iblk m c 1 t) (Pieces.blockRows (grid0.coords t) (iblk m c 0 t)) (outsAt0 m c (t.val - 1) (Nat.lt_of_le_of_lt (Nat.sub_le _ _) t.isLt)).2.1) (iblk m c 4 t)
      (k0_pay4 (iblk m c 1 t) (iblk m c 2 t) (outsAt0 m c (t.val - 1) (Nat.lt_of_le_of_lt (Nat.sub_le _ _) t.isLt)).2.2) (iblk m c 5 t) (iblk m c 6 t) (ix2 p o)
    = out m c (((cfg0.win 7).blk t).view.emb (ix2 p o))
  rw [out_entry]
  show _ = readoutAt (X m c) (E m c) (A m c) (W m c) (B m c) (rowAt t.val t.isLt p) o
  refine (PayloadAt.pay5_apply (Pieces.ownRows (grid0.coords t) ((hcond0_1 t).mpr h1) (iblk m c 0 t)) (iblk m c 3 t)
      (k0_pay3 (iblk m c 1 t) (Pieces.blockRows (grid0.coords t) (iblk m c 0 t)) (outsAt0 m c (t.val - 1) (Nat.lt_of_le_of_lt (Nat.sub_le _ _) t.isLt)).2.1) (iblk m c 4 t)
      (k0_pay4 (iblk m c 1 t) (iblk m c 2 t) (outsAt0 m c (t.val - 1) (Nat.lt_of_le_of_lt (Nat.sub_le _ _) t.isLt)).2.2) (iblk m c 5 t) (iblk m c 6 t) p o).trans ?_
  obtain ⟨hn, he⟩ := carried m c t h0 (sums_at m c (t.val - 1) (Nat.lt_of_le_of_lt (Nat.sub_le _ _) t.isLt)) p
  unfold readoutAt
  refine congrArg₂ (· + ·) (congrArg₂ (· + ·) (congrArg₂ (· + ·)
    (Finset.sum_congr rfl fun d _ => ?_) (Finset.sum_congr rfl fun d _ => ?_)) ?_) ?_
  · exact congrArg₂ (· * ·)
      ((Blocks.ownRows_apply (iblk m c 0 t) t ((hcond0_1 t).mpr h1) p d (rowAt t.val t.isLt p) rfl).trans
        (Blocks.nodes_apply m c t (rowAt t.val t.isLt p) d))
      (Blocks.w1_apply m c t d o (row1 d) rfl)
  · refine congrArg₂ (· * ·) ((hn d).trans ?_) (Blocks.w2_apply m c t d o (row2 d) rfl)
    rw [h1]; exact nodePart_all (A m c) (X m c) (rowAt t.val t.isLt p) d
  · refine congrArg₂ (· * ·) (he.trans ?_) (Blocks.w3_apply m c t o row3 rfl)
    rw [h1]; exact edgePart_all (A m c) (E m c) (rowAt t.val t.isLt p)
  · exact Blocks.bias_apply m c t o

/-- An entry of the array is in point `t`'s output block iff each coordinate is in the block's range on its axis. -/
theorem mem_block (t : Fin cfg0.N) (i : S8192x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v0).slice (win0_7.rect t)).set ↔ _
  rw [View.set_slice_whole, Rect.mem_set_unit]
  exact Iff.rfl

/-- Every entry is written back: row `r` at the last point of row block `r / 2048`. -/
theorem cover (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  have hlt : 8 * ((i 0).val / 2048) + 7 < cfg0.N := by rw [N32]; omega
  refine ⟨⟨8 * ((i 0).val / 2048) + 7, hlt⟩, (flush0_7 _).mpr (by show (8 * ((i 0).val / 2048) + 7) % 8 = 7; omega), ?_⟩
  rw [mem_block]
  obtain ⟨e0, e1⟩ := Blocks.index_out ⟨8 * ((i 0).val / 2048) + 7, hlt⟩
  intro a
  match a with
  | ⟨0, _⟩ =>
    show win0_7.index ⟨8 * ((i 0).val / 2048) + 7, hlt⟩ 0 * 2048 ≤ (i 0).val
      ∧ (i 0).val < win0_7.index ⟨8 * ((i 0).val / 2048) + 7, hlt⟩ 0 * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_7.index ⟨8 * ((i 0).val / 2048) + 7, hlt⟩ 1 * 128 ≤ (i 1).val
      ∧ (i 1).val < win0_7.index ⟨8 * ((i 0).val / 2048) + 7, hlt⟩ 1 * 128 + 128
    rw [e1]
    omega

/-- So after the run the result array is the readout. -/
theorem final (c : Dev nD) : (dats m 0 c).arrAt 7 cfg0.N = out m c :=
  (dats m 0 c).arrAt_eq_of_cover 7 (out m c) (flushed_eq m c) cover

/-- The run, read: the result array at the readout of the arguments, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefReadout.lean ====
/-
  The reference program's result, read at the extended reals, is the readout function of the specification.

  The reference builds, for every node r, a row of 257 entries

      c r = [ x r 0 … x r 127 | (a x) r 0 … (a x) r 127 | (a ∘ eᵀ) r ]

  by joining three arrays side by side (the node features, the adjacency applied to the node features, and the
  column of row sums of adjacency times transposed edge features), then multiplies the 8192 × 257 array of these
  rows by the 257 × 128 weight and adds the bias to every row:

      out r o = ∑_{c < 257} (c r) c · w c o  +  b o.

  The specification writes the same number with the 257-term sum already cut at the two joints:

      out r o = ∑_d x r d · w d o  +  ∑_d (a x) r d · w (128 + d) o  +  (a ∘ eᵀ) r · w 256 o  +  b o.

  So the proof has three parts. (1) Which entry of the joined row sits at each of the 257 columns: column d < 128
  is the d-th entry of the first piece, column 128 + d the d-th entry of the second, column 256 the one entry of
  the third. (2) What the second and the third piece are: sums over the 8192 neighbours of the products the
  specification names. (3) The 257-term sum cut as 128 + 128 + 1, which only regroups additions.
-/
import proofs.«157056_g52012053954614_cont_9to1_m_572_15_alg».proof.Proof.Spec
import proofs.«157056_g52012053954614_cont_9to1_m_572_15_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.ReferenceIdeal.RefReadout

open Cert.ReferenceIdeal Cert.ReferenceIdeal.Read Cert.Readout Idealize.ShloMosaic Idealize.ShloMosaic.ValueIdx

variable (x0 : (⟨S8192x128, .f32⟩ : BufTy).Contents (Elt Ideal)) (x1 x2 : (⟨S8192x8192, .f32⟩ : BufTy).Contents (Elt Ideal))
  (x3 : (⟨S257x128, .f32⟩ : BufTy).Contents (Elt Ideal)) (x4 : (⟨S128, .f32⟩ : BufTy).Contents (Elt Ideal))

/-! ## The joined row, column by column -/

/-- Columns 0 … 127 of the joined row are the node's own features: column d lies in the span of the first piece
    (nothing before it, 0 ≤ d < 128), at position d. -/
theorem joined_at_row1 (r : Fin 8192) (d : Fin 128) :
    val_main_v5 (F := Ideal) x0 x1 x2 (ix2 r (row1 d)) = x0 (ix2 r d) := by
  unfold val_main_v5
  refine concatenate_apply_piece 1 _ _ (ix2 r (row1 d)) 0 ?_ S8192x128 x0 rfl rfl 0 rfl (ix2 r d) ?_ ?_
  · exact (by decide : 0 < 3)
  · intro b hb
    match b with
    | ⟨0, _⟩ => rfl
    | ⟨1, _⟩ => exact absurd rfl hb
  · exact Nat.zero_add _

/-- Columns 128 … 255 are the neighbour sums of node features: column 128 + d lies in the span of the second piece
    (the 128 columns of the first piece before it), at position d. -/
theorem joined_at_row2 (r : Fin 8192) (d : Fin 128) :
    val_main_v5 (F := Ideal) x0 x1 x2 (ix2 r (row2 d)) = val_main_v0 (F := Ideal) x0 x2 (ix2 r d) := by
  unfold val_main_v5
  refine concatenate_apply_piece 1 _ _ (ix2 r (row2 d)) 1 ?_ S8192x128 (val_main_v0 (F := Ideal) x0 x2)
    rfl rfl 128 rfl (ix2 r d) ?_ ?_
  · exact (by decide : 1 < 3)
  · intro b hb
    match b with
    | ⟨0, _⟩ => rfl
    | ⟨1, _⟩ => exact absurd rfl hb
  · rfl

/-- Column 256 is the neighbour sum of edge features: it lies in the span of the third piece (the 128 + 128 columns
    of the first two pieces before it), whose one column has position 0. -/
theorem joined_at_row3 (r : Fin 8192) :
    val_main_v5 (F := Ideal) x0 x1 x2 (ix2 r row3) = val_main_v4 (F := Ideal) x1 x2 (ix2 r (0 : Fin 1)) := by
  unfold val_main_v5
  refine concatenate_apply_piece 1 _ _ (ix2 r row3) 2 ?_ S8192x1 (val_main_v4 (F := Ideal) x1 x2)
    rfl rfl 256 rfl (ix2 r (0 : Fin 1)) ?_ ?_
  · exact (by decide : 2 < 3)
  · intro b hb
    match b with
    | ⟨0, _⟩ => rfl
    | ⟨1, _⟩ => exact absurd rfl hb
  · rfl

/-! ## The second and the third piece are the specification's neighbour sums -/

/-- The adjacency applied to the node features, at row r and feature d, reads adjacency at (r, k) -/
theorem lidx_v0_eq (r : Fin 8192) (d : Fin 128) (k : Fin 8192) : lidx_main_v0 (ix2 r d) k = ix2 r k :=
  funext fun a => match a with | ⟨0, _⟩ => rfl | ⟨1, _⟩ => rfl

/-- and the node features at (k, d). -/
theorem ridx_v0_eq (r : Fin 8192) (d : Fin 128) (k : Fin 8192) : ridx_main_v0 (ix2 r d) k = ix2 k d :=
  funext fun a => match a with | ⟨0, _⟩ => rfl | ⟨1, _⟩ => rfl

/-- The second piece: (a x) r d = ∑_k a r k · x k d, term by term the specification's sum. -/
theorem product_eq_nodeAgg (r : Fin 8192) (d : Fin 128) :
    val_main_v0 (F := Ideal) x0 x2 (ix2 r d) = nodeAgg x2 x0 r d := by
  rw [val_main_v0_apply]
  unfold nodeAgg
  refine Finset.sum_congr rfl fun k _ => ?_
  rw [lidx_v0_eq, ridx_v0_eq]
  rfl

/-- The one column of the third piece at row r reads the row sum at r, whose k-th term sits at (r, k) -/
theorem idx_v3_v4_eq (r : Fin 8192) (k : Fin 8192) : idx_main_v3 (idx_main_v4 (ix2 r (0 : Fin 1))) k = ix2 r k :=
  funext fun a => match a with | ⟨0, _⟩ => rfl | ⟨1, _⟩ => rfl

/-- and the transposed edge features at (r, k) are the edge features at (k, r). -/
theorem idx_v1_eq (r k : Fin 8192) : idx_main_v1 (ix2 r k) = ix2 k r :=
  funext fun a => match a with | ⟨0, _⟩ => rfl | ⟨1, _⟩ => rfl

/-- The third piece: the sum starts from the constant 0 and adds a r k · e k r over the neighbours k; the
    starting 0 drops out, and what is left is term by term the specification's sum. -/
theorem rowsum_eq_edgeAgg (r : Fin 8192) :
    val_main_v4 (F := Ideal) x1 x2 (ix2 r (0 : Fin 1)) = edgeAgg x2 x1 r := by
  rw [val_main_v4_apply, val_main_v3_apply, val_main_cst_apply, Ideal.ofBits_def, Ideal.ofBits_zero_f32, zero_add]
  unfold edgeAgg
  refine Finset.sum_congr rfl fun k _ => ?_
  rw [val_main_v2_apply, val_main_v1_apply, Ideal.mulf_def, idx_v3_v4_eq, idx_v1_eq]
  rfl

/-! ## The bias and the last product -/

/-- The bias is copied to every row: at (r, o) it is b o. -/
theorem bias_at (r : Fin 8192) (o : Fin 128) : val_main_v8 (F := Ideal) x4 (ix2 r o) = x4 (ix1 o) := by
  rw [val_main_v8_apply, val_main_v7_apply]
  exact congrArg x4 (funext fun a => match a with | ⟨0, _⟩ => rfl)

/-- The product of the joined rows with the weight, at (r, o): the sum over the 257 columns c of the joined row's
    entry at (r, c) times the weight at (c, o). -/
theorem product_at (r : Fin 8192) (o : Fin 128) :
    val_main_v6 (F := Ideal) x0 x1 x2 x3 (ix2 r o)
      = ∑ c : Fin 257, val_main_v5 (F := Ideal) x0 x1 x2 (ix2 r c) * x3 (ix2 c o) := by
  rw [val_main_v6_apply]
  refine Finset.sum_congr rfl fun c _ => ?_
  have hl : lidx_main_v6 (ix2 r o) c = ix2 r c := funext fun a => match a with | ⟨0, _⟩ => rfl | ⟨1, _⟩ => rfl
  have hr : ridx_main_v6 (ix2 r o) c = ix2 c o := funext fun a => match a with | ⟨0, _⟩ => rfl | ⟨1, _⟩ => rfl
  rw [hl, hr]

/-! ## The result -/

/-- At row r and output feature o. The 257-term sum is cut at the two joints of the row: the first 128 terms
    meet the node's own features, the next 128 the neighbour sums of node features, the last the neighbour sum
    of edge features, each against its row of the weight. -/
theorem val_at (r : Fin 8192) (o : Fin 128) :
    val_main_v9 (F := Ideal) x0 x1 x2 x3 x4 (ix2 r o) = readoutAt x0 x1 x2 x3 x4 r o := by
  rw [val_main_v9_apply, Ideal.addf_def, product_at, bias_at, sum_fin257]
  unfold readoutAt
  refine congrArg (· + x4 (ix1 o)) (congrArg₂ (· + ·) (congrArg₂ (· + ·)
    (Finset.sum_congr rfl fun d _ => ?_) (Finset.sum_congr rfl fun d _ => ?_)) ?_)
  · rw [joined_at_row1]
  · rw [joined_at_row2, product_eq_nodeAgg]
  · rw [joined_at_row3, rowsum_eq_edgeAgg]

end Cert.ReferenceIdeal.RefReadout

/- The two arrays are equal because they agree at every index: an index of an 8192 × 128 array is a pair (r, o) of
   a row and an output feature, and at (r, o) the equation is the one just proved. -/
open Cert.ReferenceIdeal Cert.ReferenceIdeal.Read Idealize.ShloMosaic Idealize.ShloMosaic.ValueIdx in
theorem Cert.ReferenceIdeal.RefReadout.val_eq_readout
    (x0 : (⟨S8192x128, .f32⟩ : BufTy).Contents (Elt Ideal)) (x1 x2 : (⟨S8192x8192, .f32⟩ : BufTy).Contents (Elt Ideal))
    (x3 : (⟨S257x128, .f32⟩ : BufTy).Contents (Elt Ideal)) (x4 : (⟨S128, .f32⟩ : BufTy).Contents (Elt Ideal)) :
    Cert.ReferenceIdeal.Read.val_main_v9 (F := Ideal) x0 x1 x2 x3 x4 = Cert.Readout.readout x0 x1 x2 x3 x4 := by
  funext i
  obtain ⟨r, o, rfl⟩ : ∃ (r : Fin 8192) (o : Fin 128), i = ix2 r o := ⟨i 0, i 1, eq_ix2 i⟩
  exact Cert.ReferenceIdeal.RefReadout.val_at x0 x1 x2 x3 x4 r o

end
-- ==== Proof.lean ====
/-
  The kernel and its reference compute the same readout of a graph layer.

  The reference, in plain array operations: with node features `x` (8192 × 128), edge features `e` and adjacency `a`
  (8192 × 8192), a weight `w` (257 × 128) and a bias `b`, it joins `x`, `a x` and the column of the row sums of
  `a ∘ eᵀ` into an 8192 × 257 array, multiplies by `w` and adds `b`. The kernel walks a 4 × 8 grid of 2048 × 1024
  tiles of `a` (and the matching transposed tiles of `e`), keeps the two neighbour sums of a row block in scratch
  memory, adding one column block per point, and at the last column block multiplies the row block's own features,
  the finished node sum and the finished edge sum by the three row blocks of `w`, adds `b`, and writes the row block
  of the result.

  On the extended reals both are the function `Cert.Readout.readout` (Proof/Spec.lean):

      out r o = ∑_d x r d · w d o + ∑_d (∑_k a r k · x k d) · w (128 + d) o + (∑_k a r k · e k r) · w 256 o + b o.

  The kernel side is the induction over the grid points (Proof/Accum.lean) over the body's arithmetic read at an
  element (Proof/PayloadAt.lean), the contents each case of the body leaves (Proof/Pieces.lean) and the entries each
  block holds (Proof/Blocks.lean), closed in Proof/Result.lean; the reference side is Proof/RefReadout.lean. The two
  differ only in how finite sums are grouped — eight column blocks of 1024 against one sum of 8192, a 257-term
  contraction against 128 + 128 + 1 — and in zero starting values, so no product is ever moved across a sum and the
  equality holds at every extended real: the finiteness of the inputs is not used. The three programs run to the end
  with their arguments unchanged (the frames); the idealized kernel is the kernel's own text read on the extended
  reals (no rewrite was applied, and a change of float format is the identity there).
-/
import proofs.«157056_g52012053954614_cont_9to1_m_572_15_alg».proof.Defs
import proofs.«157056_g52012053954614_cont_9to1_m_572_15_alg».proof.Proof.Gen.Kernel
import proofs.«157056_g52012053954614_cont_9to1_m_572_15_alg».proof.Proof.Gen.Kernel.Frame
import proofs.«157056_g52012053954614_cont_9to1_m_572_15_alg».proof.Proof.Gen.KernelIdeal
import proofs.«157056_g52012053954614_cont_9to1_m_572_15_alg».proof.Proof.Gen.KernelIdeal.Frame
import proofs.«157056_g52012053954614_cont_9to1_m_572_15_alg».proof.Proof.Gen.KernelIdeal.Value
import proofs.«157056_g52012053954614_cont_9to1_m_572_15_alg».proof.Proof.Gen.ReferenceIdeal
import proofs.«157056_g52012053954614_cont_9to1_m_572_15_alg».proof.Proof.Gen.ReferenceIdeal.Run
import proofs.«157056_g52012053954614_cont_9to1_m_572_15_alg».proof.Proof.Gen.ReferenceIdeal.Read
import proofs.«157056_g52012053954614_cont_9to1_m_572_15_alg».proof.Proof.Gen.Pre_finite_inputs
import proofs.«157056_g52012053954614_cont_9to1_m_572_15_alg».proof.Proof.Result
import proofs.«157056_g52012053954614_cont_9to1_m_572_15_alg».proof.Proof.RefReadout
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories that agree on the five arguments, the kernel's result array ends at the readout of its arguments
    (Proof/Result.lean) and the reference's at the readout of its own (Proof/RefReadout.lean): the same array. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefReadout.val_eq_readout,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
